-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oge main_arg5 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v28 main_v31
  main_v32

def fn {F : FTy → Type} [FloatOps F] (main_arg0 : FVec F S100000x64 .f32) (main_arg1 : FVec F S27x64x64 .f32) (main_arg2 : FVec F S64 .f32) (main_arg3 : FVec F S64 .f32) (main_arg4 : FVec F S64 .f32) (main_arg5 : FVec F S64 .f32) (main_arg6 : IVec S27x60000 32) (main_arg7 : IVec S27x60000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x64 : Shape := ⟨2, ![100000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩
abbrev S27x60000x1 : Shape := ⟨3, ![27, 60000, 1]⟩
abbrev S27x60000x64 : Shape := ⟨3, ![27, 60000, 64]⟩
abbrev S1x20000x64 : Shape := ⟨3, ![1, 20000, 64]⟩
abbrev S1x64x64 : Shape := ⟨3, ![1, 64, 64]⟩
abbrev S20000x64 : Shape := ⟨2, ![20000, 64]⟩
abbrev S64x64 : Shape := ⟨2, ![64, 64]⟩
abbrev S1620000x64 : Shape := ⟨2, ![1620000, 64]⟩
abbrev S1620000 : Shape := ⟨1, ![1620000]⟩
abbrev S1620000x1 : Shape := ⟨2, ![1620000, 1]⟩
abbrev S50000x128 : Shape := ⟨2, ![50000, 128]⟩
abbrev S128 : Shape := ⟨1, ![128]⟩
abbrev S1x128 : Shape := ⟨2, ![1, 128]⟩
abbrev S10000x128 : Shape := ⟨2, ![10000, 128]⟩

abbrev nBuf : Space → Nat
  | .hbm => 41
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S27x60000, .i32⟩
  | .hbm, ⟨7, _⟩ => ⟨S27x60000, .i32⟩
  | .hbm, ⟨8, _⟩ => ⟨S100000x64, .bf16⟩
  | .hbm, ⟨9, _⟩ => ⟨S_, .i32⟩
  | .hbm, ⟨10, _⟩ => ⟨S27x60000, .i32⟩
  | .hbm, ⟨11, _⟩ => ⟨S27x60000, .i1⟩
  | .hbm, ⟨12, _⟩ => ⟨S_, .i32⟩
  | .hbm, ⟨13, _⟩ => ⟨S27x60000, .i32⟩
  | .hbm, ⟨14, _⟩ => ⟨S27x60000, .i32⟩
  | .hbm, ⟨15, _⟩ => ⟨S27x60000, .i32⟩
  | .hbm, ⟨16, _⟩ => ⟨S27x60000x1, .i32⟩
  | .hbm, ⟨17, _⟩ => ⟨S27x60000x64, .bf16⟩
  | .hbm, ⟨18, _⟩ => ⟨S27x64x64, .bf16⟩
  | .hbm, ⟨19, _⟩ => ⟨S27x60000x64, .f32⟩
  | .hbm, ⟨20, _⟩ => ⟨S1620000x64, .f32⟩
  | .hbm, ⟨21, _⟩ => ⟨S1620000, .i32⟩
  | .hbm, ⟨22, _⟩ => ⟨S_, .f32⟩
  | .hbm, ⟨23, _⟩ => ⟨S100000x64, .f32⟩
  | .hbm, ⟨24, _⟩ => ⟨S1620000x1, .i32⟩
  | .hbm, ⟨25, _⟩ => ⟨S100000x64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S50000x128, .f32⟩
  | .hbm, ⟨35, _⟩ => ⟨S128, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S50000x128, .f32⟩
  | .hbm, ⟨40, _⟩ => ⟨S100000x64, .f32⟩
  | .local _ .vmem, ⟨0, _⟩ => ⟨S1x20000x64, .bf16⟩
  | .local _ .vmem, ⟨1, _⟩ => ⟨S1x20000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x20000x64, .f32⟩
  | .local _ .vmem, ⟨5, _⟩ => ⟨S1x20000x64, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![27, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S20000x64_S1x20000x64 : S20000x64.ShapeCasts S1x20000x64
  shapeCasts_S27x60000x64_S1620000x64 : S27x60000x64.ShapeCasts S1620000x64
  shapeCasts_S27x60000_S1620000 : S27x60000.ShapeCasts S1620000
  bcast_S_S100000x64 : S_.BroadcastsInDim S100000x64 (![] : Fin 0 → Fin S100000x64.rank)
  bcast_S1620000_S1620000x1_0 : S1620000.BroadcastsInDim S1620000x1 (![0] : Fin 1 → Fin S1620000x1.rank)
  bcast_S_S64 : S_.BroadcastsInDim S64 (![] : Fin 0 → Fin S64.rank)
  shapeCasts_S100000x64_S50000x128 : S100000x64.ShapeCasts S50000x128
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S50000x128_S100000x64 : S50000x128.ShapeCasts S100000x64
  gather_S100000x64_S27x60000x1_S27x60000x64_2_0_n_n_0_2_164_wf : GatherDims.WF S100000x64 S27x60000x1 S27x60000x64 [2] [0] [] [0] [] 2 ![1, 64]
  dot_S20000x64_S64x64_S20000x64_1_0_0_1_n_n_wf : DotDims.WF S20000x64 S64x64 S20000x64 [1] [0] [0] [1] [] []
  scatter_S100000x64_S1620000x1_S1620000x64_1_0_0_1_wf : ScatterDims.WF S100000x64 S1620000x1 S1620000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S27x60000x64.size a
  hwx0_0 : ∀ i : grid0.Coords, EltTy.bits .bf16 = 32 ∨ (Rect.block (s := S27x60000x64) S1x20000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x60000x64.size a
  hwx0_2 : ∀ i : grid0.Coords, EltTy.bits .f32 = 32 ∨ (Rect.block (s := S27x60000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)

variable [Facts₀]

def gather_S100000x64_S27x60000x1_S27x60000x64_2_0_n_n_0_2_164 : GatherDims S100000x64 S27x60000x1 S27x60000x64 where
  offsetDims := [2]
  collapsedSliceDims := [0]
  operandBatchingDims := []
  startIndicesBatchingDims := []
  startIndexMap := [0]
  indexVectorDim := 2
  sliceSizes := ![1, 64]
  wf := gather_S100000x64_S27x60000x1_S27x60000x64_2_0_n_n_0_2_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S100000x64_S1620000x1_S1620000x64_1_0_0_1 : ScatterDims S100000x64 S1620000x1 S1620000x64 where
  updateWindowDims := [1]
  insertedWindowDims := [0]
  scatterDimsToOperandDims := [0]
  indexVectorDim := 1
  wf := scatter_S100000x64_S1620000x1_S1620000x64_1_0_0_1_wf

abbrev win0_0 : Pipeline.Window sig grid0 :=
  Pipeline.Window.ofSpec (Memref.whole main_v7) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩
abbrev S27x60000x1 : Shape := ⟨3, ![27, 60000, 1]⟩
abbrev S27x60000x64 : Shape := ⟨3, ![27, 60000, 64]⟩
abbrev S1620000x64 : Shape := ⟨2, ![1620000, 64]⟩
abbrev S1620000 : Shape := ⟨1, ![1620000]⟩
abbrev S1620000x1 : Shape := ⟨2, ![1620000, 1]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S27x60000, .i32⟩
  | .hbm, ⟨7, _⟩ => ⟨S27x60000, .i32⟩
  | .hbm, ⟨8, _⟩ => ⟨S_, .i32⟩
  | .hbm, ⟨9, _⟩ => ⟨S27x60000, .i32⟩
  | .hbm, ⟨10, _⟩ => ⟨S27x60000, .i1⟩
  | .hbm, ⟨11, _⟩ => ⟨S_, .i32⟩
  | .hbm, ⟨12, _⟩ => ⟨S27x60000, .i32⟩
  | .hbm, ⟨13, _⟩ => ⟨S27x60000, .i32⟩
  | .hbm, ⟨14, _⟩ => ⟨S27x60000, .i32⟩
  | .hbm, ⟨15, _⟩ => ⟨S27x60000x1, .i32⟩
  | .hbm, ⟨16, _⟩ => ⟨S27x60000x64, .f32⟩
  | .hbm, ⟨17, _⟩ => ⟨S27x60000x64, .f32⟩
  | .hbm, ⟨18, _⟩ => ⟨S1620000x64, .f32⟩
  | .hbm, ⟨19, _⟩ => ⟨S1620000, .i32⟩
  | .hbm, ⟨20, _⟩ => ⟨S_, .f32⟩
  | .hbm, ⟨21, _⟩ => ⟨S100000x64, .f32⟩
  | .hbm, ⟨22, _⟩ => ⟨S1620000x1, .i32⟩
  | .hbm, ⟨23, _⟩ => ⟨S100000x64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  shapeCasts_S27x60000x64_S1620000x64 : S27x60000x64.ShapeCasts S1620000x64
  shapeCasts_S27x60000_S1620000 : S27x60000.ShapeCasts S1620000
  bcast_S_S100000x64 : S_.BroadcastsInDim S100000x64 (![] : Fin 0 → Fin S100000x64.rank)
  bcast_S1620000_S1620000x1_0 : S1620000.BroadcastsInDim S1620000x1 (![0] : Fin 1 → Fin S1620000x1.rank)
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S27x60000x1_S27x60000x64_2_0_n_n_0_2_164_wf : GatherDims.WF S100000x64 S27x60000x1 S27x60000x64 [2] [0] [] [0] [] 2 ![1, 64]
  dot_S27x60000x64_S27x64x64_S27x60000x64_2_1_1_2_0_0_wf : DotDims.WF S27x60000x64 S27x64x64 S27x60000x64 [2] [1] [1] [2] [0] [0]
  scatter_S100000x64_S1620000x1_S1620000x64_1_0_0_1_wf : ScatterDims.WF S100000x64 S1620000x1 S1620000x64 [1] [0] [0] 1

variable [Facts₀]

def gather_S100000x64_S27x60000x1_S27x60000x64_2_0_n_n_0_2_164 : GatherDims S100000x64 S27x60000x1 S27x60000x64 where
  offsetDims := [2]
  collapsedSliceDims := [0]
  operandBatchingDims := []
  startIndicesBatchingDims := []
  startIndexMap := [0]
  indexVectorDim := 2
  sliceSizes := ![1, 64]
  wf := gather_S100000x64_S27x60000x1_S27x60000x64_2_0_n_n_0_2_164_wf
def dot_S27x60000x64_S27x64x64_S27x60000x64_2_1_1_2_0_0 : DotDims S27x60000x64 S27x64x64 S27x60000x64 where
  lhsContracting := [2]
  rhsContracting := [1]
  lhsNonContracting := [1]
  rhsNonContracting := [2]
  lhsBatch := [0]
  rhsBatch := [0]
  wf := dot_S27x60000x64_S27x64x64_S27x60000x64_2_1_1_2_0_0_wf
def scatter_S100000x64_S1620000x1_S1620000x64_1_0_0_1 : ScatterDims S100000x64 S1620000x1 S1620000x64 where
  updateWindowDims := [1]
  insertedWindowDims := [0]
  scatterDimsToOperandDims := [0]
  indexVectorDim := 1
  wf := scatter_S100000x64_S1620000x1_S1620000x64_1_0_0_1_wf

class Facts : Prop extends Facts₀ where

variable [Facts]
-- ==== Proof.NamedRun.lean ====
/-
  The kernel program's run with its RESULT named.

  @main is five segments: host operations, the matrix-product region, host operations, the scale-shift-clamp region,
  one last host operation. The contents of every buffer at each boundary are a fold from the launch memory; the last of
  them, `W5 m ρ c`, is what every unscoped buffer holds when @main returns. Here the launch theorem for a list of
  segments is applied to those segments once more, and the final state is read at the result buffer as well as at the
  eight arguments: every weakly fair execution terminates, the result buffer holds `W5 m ρ c` at the result's
  reference, and the arguments hold what they were launched with.
-/
import proofs.«142522_j52810917871748_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and each argument array as launched. -/
theorem run : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Named

end
-- ==== Proof.Spec.lean ====
/-
  The two array-level functions the kernel's regions compute, as functions of whole arrays over the extended reals.

  * `mmArr g w`: the batched matrix product. Entry (k, m, d) is the sum over the 64 input channels c of
    g[k, m, c] · w[k, c, d]: offset k's gathered rows times offset k's 64 × 64 weight matrix.
  * `bnArr x s b`: scale, shift, clamp below at zero, lane by lane. Entry (r, l) is max (x[r, l] · s[0, l] + b[0, l]) 0,
    on the [50000, 128] view in which each row holds two consecutive 64-channel rows of the [100000, 64] array.
-/
import proofs.«142522_j52810917871748_2_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal
open scoped BigOperators

/-- The lane of a [rows, 128] index, as an index into a [1, 128] row. -/
def lane {n : Nat} (j : (⟨2, ![n, 128]⟩ : Shape).Idx) : S1x128.Idx := ix2 (0 : Fin 1) (j 1 : Fin 128)

theorem lane_val0 {n : Nat} (j : (⟨2, ![n, 128]⟩ : Shape).Idx) : (lane j 0).val = 0 := rfl
theorem lane_val1 {n : Nat} (j : (⟨2, ![n, 128]⟩ : Shape).Idx) : (lane j 1).val = (j 1).val := rfl

/-- Entry (r, l) is max (x[r, l] · s[0, l] + b[0, l]) 0. -/
def bnArr (x : FVec Ideal S50000x128 .f32) (s b : FVec Ideal S1x128 .f32) : FVec Ideal S50000x128 .f32 :=
  fun j => max (x j * s (lane j) + b (lane j)) (Ideal.ofBits .f32 0x00000000#32)

/-- Entry (k, m, d) is Σ_c g[k, m, c] · w[k, c, d]. -/
def mmArr {φ ψ : FTy} (g : FVec Ideal S27x60000x64 φ) (w : FVec Ideal S27x64x64 φ) : FVec Ideal S27x60000x64 ψ :=
  fun j => ∑ c : Fin 64, g (ix3 (j 0 : Fin 27) (j 1 : Fin 60000) c) * w (ix3 (j 0 : Fin 27) c (j 2 : Fin 64))

end Cert.KernelIdeal.Spec

end
-- ==== Proof.Clamp.lean ====
/-
  The scale-shift-clamp region, as one function of whole arrays.

  The region walks the [50000, 128] array in five blocks of 10000 rows; every point also sees the one-row scale and
  shift arrays whole. At a point the body stores, at (r, l) of its block, max (x[r, l] · s[0, l] + b[0, l]) 0. Row r of
  block t is row 10000 t + r of the array and the lane is unchanged, so what point t writes back is block t of
  `bnArr x s b`; the five blocks tile the array, hence the output array ends holding `bnArr x s b`.
-/
import proofs.«142522_j52810917871748_2_alg».proof.Proof.Gen.KernelIdeal.Frame
import proofs.«142522_j52810917871748_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Clamp

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The data, scale and shift arrays as the region finds them, at their literal shapes. -/
abbrev xArr (c : Dev nD) : FVec Ideal S50000x128 .f32 := V c main_v22
abbrev sArr (c : Dev nD) : FVec Ideal S1x128 .f32 := V c main_v24
abbrev bArr (c : Dev nD) : FVec Ideal S1x128 .f32 := V c main_v26

theorem zeros2 : (![0, 0] : Fin 2 → Nat) = fun _ => 0 := funext fun a => by fin_cases a <;> rfl

/-- The body's stored value at (r, l) of a block is max (x[r, l] · s[0, l] + b[0, l]) 0. -/
theorem payload_apply (x0 : FVec Ideal S10000x128 .f32) (x1 x2 : FVec Ideal S1x128 .f32) (j : S10000x128.Idx) :
    k1_pay1 (F := Ideal) x0 x1 x2 j = max (x0 j * x1 (lane j) + x2 (lane j)) (Ideal.ofBits .f32 0x00000000#32) := by
  obtain ⟨r, l, rfl⟩ : ∃ (r : Fin 10000) (l : Fin 128), j = ix2 r l := ⟨j 0, j 1, eq_ix2 j⟩
  unfold k1_pay1
  show max ((shapeCast S10000x128 x0 _ (ix2 r l)) * (broadcastTo S10000x128 (shapeCast S1x128 x1 _) _ (ix2 r l))
      + broadcastTo S10000x128 (shapeCast S1x128 x2 _) _ (ix2 r l)) _ = _
  rw [shapeCast_self, shapeCast_self, shapeCast_self, broadcastTo_1b_ab_apply, broadcastTo_1b_ab_apply]
  rfl

/-- The printed block index maps over the five grid points: the data window moves with the output window along the rows
    and neither moves along the lanes; the scale and shift windows do not move at all. -/
theorem index_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 4 :=
  (by decide +kernel : ∀ t : Fin grid1.N, _)

/-- Every one of the five row blocks is some point's. -/
theorem index_onto : ∀ q : Fin 5, ∃ t : Fin cfg1.N, win1_3.index t = ![q.val, 0] :=
  (by decide +kernel : ∀ q : Fin 5, ∃ t : Fin grid1.N, win1_3.index t = ![q.val, 0])

/-- What point `t` writes back is block `t` of `bnArr` of the three arrays as the region finds them. -/
theorem flushed_eq (c : Dev nD) (t : Fin cfg1.N) :
    (dat1 (F := Ideal) V c).flushed 3 t
      = ((cfg1.win 3).blk t).view.read (Elt Ideal) (bnArr (xArr V c) (sArr V c) (bArr V c)) := by
  show (cfg1.win 3).cut (grid1.coords t) ((dat1 V c).after 3 t) = _
  rw [after1_3]
  unfold out1_3
  rw [View.canon_unit_zero zeros2]
  simp only [View.ld_unit_zero (S := S10000x128) zeros2, View.ld_unit_zero (S := S1x128) zeros2]
  obtain ⟨e0, e1, e2, e3, e4, e5, e6, e7⟩ := index_facts t
  funext j
  refine (payload_apply (iblk1 V c 0 t) (iblk1 V c 1 t) (iblk1 V c 2 t) j).trans ?_
  show max (xArr V c (((cfg1.win 0).blk t).view.emb j) * sArr V c (((cfg1.win 1).blk t).view.emb (lane j))
        + bArr V c (((cfg1.win 2).blk t).view.emb (lane j))) _
      = max (xArr V c (((cfg1.win 3).blk t).view.emb j) * sArr V c (lane (((cfg1.win 3).blk t).view.emb j))
        + bArr V c (lane (((cfg1.win 3).blk t).view.emb j))) _
  have h0 : ((cfg1.win 0).blk t).view.emb j = ((cfg1.win 3).blk t).view.emb j := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (lane j) = lane (((cfg1.win 3).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : ((cfg1.win 2).blk t).view.emb (lane j) = lane (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v27).slice (win1_3.rect t)).set ↔ _
  rw [View.set_slice_whole, Rect.mem_set_unit]
  exact Iff.rfl

/-- The five row blocks tile the array: row r lies in block r / 10000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- After the region its output array holds `bnArr` of the data, scale and shift arrays the region was entered with. -/
theorem array_eq (c : Dev nD) :
    (dat1 (F := Ideal) V c).arrAt 3 cfg1.N = bnArr (xArr V c) (sArr V c) (bArr V c) :=
  (dat1 V c).arrAt_eq_of_cover 3 _ (fun t _ => flushed_eq V c t) covered

end Cert.KernelIdeal.Clamp

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.Gemm.lean ====
/-
  The matrix-product region, as one function of whole arrays.

  The region walks the [27, 60000, 64] array of gathered rows in 27 × 3 blocks of one offset and 20000 rows; with each
  it sees that offset's whole 64 × 64 weight matrix. At a point the body multiplies its [20000, 64] block by the
  [64, 64] matrix into a zero accumulator, so it stores at (0, p, q) of its block the sum over c of g[0, p, c] · w[0, c, q].
  Row p of block (k, b) is row 20000 b + p of offset k, and the weight block of that point is offset k's, so what the
  point writes back is its block of `mmArr g w`; the 81 blocks tile the array, hence the output array ends holding
  `mmArr g w`.
-/
import proofs.«142522_j52810917871748_2_alg».proof.Proof.Gen.KernelIdeal.Frame
import proofs.«142522_j52810917871748_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«142522_j52810917871748_2_alg».proof.Proof.LibDotCols
set_option maxRecDepth 16384

noncomputable section

namespace Cert.KernelIdeal.Gemm

open Cert.KernelIdeal Cert.KernelIdeal.Gen Cert.KernelIdeal.Spec
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem zeros3 : (![0, 0, 0] : Fin 3 → Nat) = fun _ => 0 := funext fun a => by fin_cases a <;> rfl

/-- The body's stored value at (u, p, q) of a block is Σ_c g[0, p, c] · w[0, c, q]. -/
theorem payload_apply (x0 : FVec Ideal S1x20000x64 .bf16) (x1 : FVec Ideal S1x64x64 .bf16) (j : S1x20000x64.Idx) :
    k0_pay1 (F := Ideal) x0 x1 j
      = ∑ k : Fin 64, x0 (ix3 (0 : Fin 1) (j 1 : Fin 20000) k) * x1 (ix3 (0 : Fin 1) k (j 2 : Fin 64)) := by
  obtain ⟨u, p, q, rfl⟩ : ∃ (u : Fin 1) (p : Fin 20000) (q : Fin 64), j = ix3 u p q := ⟨j 0, j 1, j 2, eq_ix3 j⟩
  unfold k0_pay1
  show shapeCast S1x20000x64 (matmul dot_S20000x64_S64x64_S20000x64_1_0_0_1_n_n none (shapeCast S20000x64 x0 _)
      (shapeCast S64x64 x1 _) (constant S20000x64 .f32 0x00000000#32)) _ (ix3 u p q) = _
  rw [shapeCast_ab_1ab_apply]
  refine (Cert.Lib.DotCols.matmul_cols_apply _ rfl none _ _ p q).trans ?_
  refine Finset.sum_congr rfl fun k _ => ?_
  rw [shapeCast_1ab_ab_apply, shapeCast_1ab_ab_apply]

/-- The gathered rows and the weights as the region finds them, at their literal shapes. -/
abbrev gArr (c : Dev nD) : FVec Ideal S27x60000x64 .bf16 := V c main_v7
abbrev wArr (c : Dev nD) : FVec Ideal S27x64x64 .bf16 := V c main_v8

/-- The printed block index maps over the 81 grid points: the row window moves with the output window on the offset and
    row axes and not along the channels; the weight window follows the offset only. -/
theorem index_facts : ∀ t : Fin cfg0.N, win0_0.index t (0 : Fin 3) = win0_2.index t (0 : Fin 3)
    ∧ win0_0.index t (1 : Fin 3) = win0_2.index t (1 : Fin 3) ∧ win0_0.index t (2 : Fin 3) = 0
    ∧ win0_1.index t (0 : Fin 3) = win0_2.index t (0 : Fin 3)
    ∧ win0_1.index t (1 : Fin 3) = 0 ∧ win0_1.index t (2 : Fin 3) = 0
    ∧ win0_2.index t (2 : Fin 3) = 0 :=
  (by decide +kernel : ∀ t : Fin grid0.N, _)

/-- Every one of the 27 × 3 blocks is some point's. -/
theorem index_onto : ∀ (q0 : Fin 27) (q1 : Fin 3), ∃ t : Fin cfg0.N, win0_2.index t = ![q0.val, q1.val, 0] :=
  (by decide +kernel : ∀ (q0 : Fin 27) (q1 : Fin 3), ∃ t : Fin grid0.N, win0_2.index t = ![q0.val, q1.val, 0])

/-- What point `t` writes back is block `t` of `mmArr` of the two arrays as the region finds them. -/
theorem flushed_eq (c : Dev nD) (t : Fin cfg0.N) :
    (dat0 (F := Ideal) V c).flushed 2 t
      = ((cfg0.win 2).blk t).view.read (Elt Ideal) (mmArr (φ := .bf16) (ψ := .f32) (gArr V c) (wArr V c)) := by
  show (cfg0.win 2).cut (grid0.coords t) ((dat0 V c).after 2 t) = _
  rw [after0_2]
  unfold out0_2
  rw [View.canon_unit_zero zeros3]
  simp only [View.ld_unit_zero (S := S1x20000x64) zeros3, View.ld_unit_zero (S := S1x64x64) zeros3]
  obtain ⟨e0, e1, e2, e3, e4, e5, e6⟩ := index_facts t
  funext j
  refine (payload_apply (iblk0 V c 0 t) (iblk0 V c 1 t) j).trans ?_
  show (∑ k : Fin 64, gArr V c (((cfg0.win 0).blk t).view.emb (ix3 (0 : Fin 1) (j 1 : Fin 20000) k))
        * wArr V c (((cfg0.win 1).blk t).view.emb (ix3 (0 : Fin 1) k (j 2 : Fin 64))))
      = ∑ k : Fin 64, gArr V c (ix3 ((((cfg0.win 2).blk t).view.emb j) 0 : Fin 27) ((((cfg0.win 2).blk t).view.emb j) 1 : Fin 60000) k)
        * wArr V c (ix3 ((((cfg0.win 2).blk t).view.emb j) 0 : Fin 27) k ((((cfg0.win 2).blk t).view.emb j) 2 : Fin 64))
  have hj0 : (j 0).val < 1 := (j 0).isLt
  refine Finset.sum_congr rfl fun k _ => ?_
  have h0 : ((cfg0.win 0).blk t).view.emb (ix3 (0 : Fin 1) (j 1 : Fin 20000) k)
      = ix3 ((((cfg0.win 2).blk t).view.emb j) 0 : Fin 27) ((((cfg0.win 2).blk t).view.emb j) 1 : Fin 60000) k := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 20000 + 1 * (j 1).val = win0_2.index t (1 : Fin 3) * 20000 + 1 * (j 1).val; omega
    | ⟨2, _⟩ => show win0_0.index t (2 : Fin 3) * 64 + 1 * k.val = k.val; omega
  have h1 : ((cfg0.win 1).blk t).view.emb (ix3 (0 : Fin 1) k (j 2 : Fin 64))
      = ix3 ((((cfg0.win 2).blk t).view.emb j) 0 : Fin 27) k ((((cfg0.win 2).blk t).view.emb j) 2 : Fin 64) := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * k.val = k.val; omega
    | ⟨2, _⟩ => show win0_1.index t (2 : Fin 3) * 64 + 1 * (j 2).val = win0_2.index t (2 : Fin 3) * 64 + 1 * (j 2).val; omega
  rw [h0, h1]
  rfl

/-- An index of the array is in point `t`'s block iff each coordinate is in the block's range on its axis. -/
theorem mem_blk (t : Fin cfg0.N) (i : S27x60000x64.Idx) :
    i ∈ ((cfg0.win 2).blk t).view.set ↔ ∀ a : Fin 3, win0_2.index t a * S1x20000x64.size a ≤ (i a).val
      ∧ (i a).val < win0_2.index t a * S1x20000x64.size a + S1x20000x64.size a := by
  show i ∈ ((View.whole main_v9).slice (win0_2.rect t)).set ↔ _
  rw [View.set_slice_whole, Rect.mem_set_unit]
  exact Iff.rfl

/-- The 81 blocks tile the array: (k, r, d) lies in the block of offset k and row block r / 20000. -/
theorem covered (i : S27x60000x64.Idx) :
    ∃ t : Fin cfg0.N, (cfg0.win 2).flush t = true ∧ i ∈ ((cfg0.win 2).blk t).view.set := by
  have hi0 : (i 0).val < 27 := (i 0).isLt
  have hi1 : (i 1).val < 60000 := (i 1).isLt
  have hi2 : (i 2).val < 64 := (i 2).isLt
  obtain ⟨t, ht⟩ := index_onto ⟨(i 0).val, hi0⟩ ⟨(i 1).val / 20000, by omega⟩
  have q0 : win0_2.index t (0 : Fin 3) = (i 0).val := congrFun ht 0
  have q1 : win0_2.index t (1 : Fin 3) = (i 1).val / 20000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 20000 ≤ (i 1).val ∧ (i 1).val < win0_2.index t (1 : Fin 3) * 20000 + 20000; omega
  | ⟨2, _⟩ => show win0_2.index t (2 : Fin 3) * 64 ≤ (i 2).val ∧ (i 2).val < win0_2.index t (2 : Fin 3) * 64 + 64; omega

/-- After the region its output array holds `mmArr` of the gathered rows and the weights the region was entered with. -/
theorem array_eq (c : Dev nD) :
    (dat0 (F := Ideal) V c).arrAt 2 cfg0.N = mmArr (φ := .bf16) (ψ := .f32) (gArr V c) (wArr V c) :=
  (dat0 V c).arrAt_eq_of_cover 2 _ (fun t _ => flushed_eq V c t) covered

end Cert.KernelIdeal.Gemm

end
-- ==== Proof.KValue.lean ====
/-
  The kernel program's result as one function of its eight argument arrays, over the extended reals, spelt with the
  operations its host stretches apply and the two regions' array-level functions.

    rows      feats (narrowed to bf16: the identity on extended reals) gathered at in_idx, negative indices wrapped by + 100000
    contrib   offset by offset, rows times that offset's 64 × 64 weights                                  (`mmArr`)
    summed    contrib, flattened to [1620000, 64], scatter-added into a zero [100000, 64] array at out_idx
    inv       rsqrt (running_var + ε);   scale = gamma · inv;   shift = beta − (running_mean · gamma) · inv
    result    on the [50000, 128] view, max (summed · scale‖scale + shift‖shift) 0, viewed back as [100000, 64]  (`bnArr`)
-/
import proofs.«142522_j52810917871748_2_alg».proof.Proof.Spec
import proofs.«142522_j52810917871748_2_alg».proof.Proof.Gen.KernelIdeal

noncomputable section

namespace Cert.KernelIdeal.KValue

open Idealize.ShloMosaic Idealize.ShloMosaic.ValueIdx Cert.KernelIdeal Cert.KernelIdeal.Spec

variable [Cert.KernelIdeal.Facts]
open Facts₀ Facts

/-- The gather's row indices: a negative index wrapped by adding 100000, with a trailing unit axis. -/
def rowIdx (x6 : IVec S27x60000 32) : IVec S27x60000x1 32 :=
  broadcastInDim S27x60000x1 ![0, 1] bcast_S27x60000_S27x60000x1_0_1
    (select (cmpi .slt x6 (broadcastInDim S27x60000 ![] bcast_S_S27x60000 (constantI S_ 32 0#32)))
      (addi x6 (broadcastInDim S27x60000 ![] bcast_S_S27x60000 (constantI S_ 32 100000#32))) x6)

/-- The gathered rows, [27, 60000, 64]. -/
def rows (x0 : FVec Ideal S100000x64 .f32) (x6 : IVec S27x60000 32) : FVec Ideal S27x60000x64 .bf16 :=
  Host.gather gather_S100000x64_S27x60000x1_S27x60000x64_2_0_n_n_0_2_164 (truncf .bf16 x0 bitsLt_bf16_f32) (rowIdx x6)

/-- Offset by offset, the gathered rows times that offset's weights. -/
def contrib (x0 : FVec Ideal S100000x64 .f32) (x1 : FVec Ideal S27x64x64 .f32) (x6 : IVec S27x60000 32) :
    FVec Ideal S27x60000x64 .f32 :=
  mmArr (φ := .bf16) (ψ := .f32) (rows x0 x6) (truncf .bf16 x1 bitsLt_bf16_f32)

/-- The contributions scatter-added by output row into a zero array. -/
def summed (x0 : FVec Ideal S100000x64 .f32) (x1 : FVec Ideal S27x64x64 .f32) (x6 x7 : IVec S27x60000 32) :
    FVec Ideal S100000x64 .f32 :=
  Host.scatterAdd scatter_S100000x64_S1620000x1_S1620000x64_1_0_0_1
    (broadcastInDim S100000x64 ![] bcast_S_S100000x64 (constant (F := Ideal) S_ .f32 0x00000000#32))
    (broadcastInDim S1620000x1 ![0] bcast_S1620000_S1620000x1_0 (shapeCast S1620000 x7 shapeCasts_S27x60000_S1620000))
    (shapeCast S1620000x64 (contrib x0 x1 x6) shapeCasts_S27x60000x64_S1620000x64)

/-- rsqrt (running_var + ε), channel by channel. -/
def inv (x5 : FVec Ideal S64 .f32) : FVec Ideal S64 .f32 :=
  Host.rsqrt (addf x5 (broadcastInDim S64 ![] bcast_S_S64 (constant (F := Ideal) S_ .f32 0x3727C5AC#32)))

/-- gamma · inv. -/
def scale (x2 x5 : FVec Ideal S64 .f32) : FVec Ideal S64 .f32 := mulf x2 (inv x5)

/-- beta − (running_mean · gamma) · inv. -/
def shift (x2 x3 x4 x5 : FVec Ideal S64 .f32) : FVec Ideal S64 .f32 := subf x3 (mulf (mulf x4 x2) (inv x5))

/-- The program's result. -/
def result (x0 : FVec Ideal S100000x64 .f32) (x1 : FVec Ideal S27x64x64 .f32) (x2 x3 x4 x5 : FVec Ideal S64 .f32)
    (x6 x7 : IVec S27x60000 32) : FVec Ideal S100000x64 .f32 :=
  shapeCast S100000x64
    (bnArr (shapeCast S50000x128 (summed x0 x1 x6 x7) shapeCasts_S100000x64_S50000x128)
      (shapeCast S1x128 (concatenate S128 0 [⟨S64, scale x2 x5⟩, ⟨S64, scale x2 x5⟩] concatenates_S64_S64_S128_d0) shapeCasts_S128_S1x128)
      (shapeCast S1x128 (concatenate S128 0 [⟨S64, shift x2 x3 x4 x5⟩, ⟨S64, shift x2 x3 x4 x5⟩] concatenates_S64_S64_S128_d0) shapeCasts_S128_S1x128))
    shapeCasts_S50000x128_S100000x64

end Cert.KernelIdeal.KValue

end
-- ==== Proof.Fold.lean ====
/-
  The result buffer when @main returns, as the function `KValue.result` of the launch contents of the arguments.

  The buffer contents at the boundaries of @main's five segments are a fold from the launch memory. It is walked here
  from the end: the last host operation views the second region's output array as [100000, 64]; that array is `bnArr`
  of the three arrays the region was entered with (the cover of its five blocks); those three are host operations of
  the first region's output array and of four arguments; that output array is `mmArr` of the gathered rows and the
  weights the first region was entered with (the cover of its 81 blocks); and those are host operations of three
  arguments. An argument buffer holds its launch contents at every boundary: no host operation and no region writes it.
-/
import proofs.«142522_j52810917871748_2_alg».proof.Proof.Gen.KernelIdeal.Frame
import proofs.«142522_j52810917871748_2_alg».proof.Proof.Clamp
import proofs.«142522_j52810917871748_2_alg».proof.Proof.Gemm
import proofs.«142522_j52810917871748_2_alg».proof.Proof.KValue
import Idealize.ShloMosaic.Lib.StableHlo.Run

set_option maxRecDepth 16384

noncomputable section

namespace Cert.KernelIdeal.Fold

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of a literal list of host operations writes the reference at hand. -/
local macro "unwritten " ops:ident : tactic => `(tactic|
  (refine List.forall_iff_forall_mem.mp ?_
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## An argument read after the first region is as launched -/

theorem W2_arg2 (c : Dev nD) : W2 m ρ c (Proc.devRef .tc main_arg2) = m ((c : Thread nD τ).loc main_arg2) :=
  (W2_of_ne m ρ c main_arg2 (by decide)).trans
    ((StableHlo.after_of_forall_not_mem (b := Proc.devRef .tc main_arg2) _ _ (by unwritten hostOps0)).trans rfl)

theorem W2_arg3 (c : Dev nD) : W2 m ρ c (Proc.devRef .tc main_arg3) = m ((c : Thread nD τ).loc main_arg3) :=
  (W2_of_ne m ρ c main_arg3 (by decide)).trans
    ((StableHlo.after_of_forall_not_mem (b := Proc.devRef .tc main_arg3) _ _ (by unwritten hostOps0)).trans rfl)

theorem W2_arg4 (c : Dev nD) : W2 m ρ c (Proc.devRef .tc main_arg4) = m ((c : Thread nD τ).loc main_arg4) :=
  (W2_of_ne m ρ c main_arg4 (by decide)).trans
    ((StableHlo.after_of_forall_not_mem (b := Proc.devRef .tc main_arg4) _ _ (by unwritten hostOps0)).trans rfl)

theorem W2_arg5 (c : Dev nD) : W2 m ρ c (Proc.devRef .tc main_arg5) = m ((c : Thread nD τ).loc main_arg5) :=
  (W2_of_ne m ρ c main_arg5 (by decide)).trans
    ((StableHlo.after_of_forall_not_mem (b := Proc.devRef .tc main_arg5) _ _ (by unwritten hostOps0)).trans rfl)

theorem W2_arg7 (c : Dev nD) : W2 m ρ c (Proc.devRef .tc main_arg7) = m ((c : Thread nD τ).loc main_arg7) :=
  (W2_of_ne m ρ c main_arg7 (by decide)).trans
    ((StableHlo.after_of_forall_not_mem (b := Proc.devRef .tc main_arg7) _ _ (by unwritten hostOps0)).trans rfl)

/-! ## The first region: entered with the gathered rows and the narrowed weights, left with their product -/

theorem V1_rows (c : Dev nD) :
    Gemm.gArr (V1 m ρ) c = KValue.rows (m ((c : Thread nD τ).loc main_arg0)) (m ((c : Thread nD τ).loc main_arg6)) := by
  show StableHlo.after hostOps0 (W0 m ρ c) (Proc.devRef .tc main_v7) = _
  after_results
  rfl

theorem V1_weights (c : Dev nD) :
    Gemm.wArr (V1 m ρ) c = truncf .bf16 (m ((c : Thread nD τ).loc main_arg1)) Facts₀.bitsLt_bf16_f32 := by
  show StableHlo.after hostOps0 (W0 m ρ c) (Proc.devRef .tc main_v8) = _
  after_results

theorem W2_contrib (c : Dev nD) :
    W2 m ρ c (Proc.devRef .tc main_v9)
      = KValue.contrib (m ((c : Thread nD τ).loc main_arg0)) (m ((c : Thread nD τ).loc main_arg1)) (m ((c : Thread nD τ).loc main_arg6)) := by
  refine (W2_arr m ρ c 2).trans ?_
  rw [Gemm.array_eq (V1 m ρ) c, V1_rows, V1_weights]
  rfl

/-! ## The second region: entered with the summed array on its [50000, 128] view and the doubled scale and shift rows -/

theorem V3_data (c : Dev nD) :
    Clamp.xArr (V3 m ρ) c
      = shapeCast S50000x128 (KValue.summed (m ((c : Thread nD τ).loc main_arg0)) (m ((c : Thread nD τ).loc main_arg1)) (m ((c : Thread nD τ).loc main_arg6)) (m ((c : Thread nD τ).loc main_arg7))) shapeCasts_S100000x64_S50000x128 := by
  show StableHlo.after hostOps1 (W2 m ρ c) (Proc.devRef .tc main_v22) = _
  after_results
  rw [W2_arg7, W2_contrib]
  rfl

theorem V3_scale (c : Dev nD) :
    Clamp.sArr (V3 m ρ) c
      = shapeCast S1x128 (concatenate S128 0 [⟨S64, KValue.scale (m ((c : Thread nD τ).loc main_arg2)) (m ((c : Thread nD τ).loc main_arg5))⟩, ⟨S64, KValue.scale (m ((c : Thread nD τ).loc main_arg2)) (m ((c : Thread nD τ).loc main_arg5))⟩]
          concatenates_S64_S64_S128_d0) shapeCasts_S128_S1x128 := by
  show StableHlo.after hostOps1 (W2 m ρ c) (Proc.devRef .tc main_v24) = _
  after_results
  rw [W2_arg2, W2_arg5]
  rfl

theorem V3_shift (c : Dev nD) :
    Clamp.bArr (V3 m ρ) c
      = shapeCast S1x128 (concatenate S128 0 [⟨S64, KValue.shift (m ((c : Thread nD τ).loc main_arg2)) (m ((c : Thread nD τ).loc main_arg3)) (m ((c : Thread nD τ).loc main_arg4)) (m ((c : Thread nD τ).loc main_arg5))⟩, ⟨S64, KValue.shift (m ((c : Thread nD τ).loc main_arg2)) (m ((c : Thread nD τ).loc main_arg3)) (m ((c : Thread nD τ).loc main_arg4)) (m ((c : Thread nD τ).loc main_arg5))⟩]
          concatenates_S64_S64_S128_d0) shapeCasts_S128_S1x128 := by
  show StableHlo.after hostOps1 (W2 m ρ c) (Proc.devRef .tc main_v26) = _
  after_results
  rw [W2_arg2, W2_arg3, W2_arg4, W2_arg5]
  rfl

/-! ## The result -/

/-- When @main returns, the result buffer holds `KValue.result` of the arguments' launch contents. -/
theorem result_eq (c : Dev nD) :
    W5 m ρ c (Proc.devRef .tc main_v28) = KValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v28) = _
  after_results
  rw [show W4 m ρ c (Proc.devRef .tc main_v27) = (dat1 (V3 m ρ) c).arrAt 3 cfg1.N from W4_arr m ρ c 3,
    Clamp.array_eq (V3 m ρ) c, V3_data, V3_scale, V3_shift]
  rfl

end Cert.KernelIdeal.Fold

end
-- ==== Proof.PreFacts.lean ====
/- The precondition "every float input is finite and the running variance is non-negative", decoded.

   The printed predicate is a conjunction of seven "all elements satisfy p" reductions: |x| < +∞ for each of the
   six float arguments, and x ≥ 0 for the variance.  Read at the extended reals, |x| = max x (−x) < ⊤ holds exactly
   when x is (the coercion of) a real number, and x ≥ 0 is the order of the extended reals.  Hence the four
   per-channel vectors are real-valued, and the variance is a non-negative real in every channel. -/
import proofs.«142522_j52810917871748_2_alg».proof.Pre_finite_inputs
import proofs.«142522_j52810917871748_2_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic
open Cert.Pre_finite_inputs

/-- The rank-0 shape has exactly one index. -/
instance subsingleton_S_ : Subsingleton S_.Idx := ⟨fun a b => funext fun d => d.elim0⟩

/-- The f32 pattern `0x7F800000` (all-ones exponent, zero significand, sign 0) denotes `+∞`. -/
theorem ofBits_inf : Ideal.ofBits .f32 0x7F800000#32 = (⊤ : EReal) := by
  simp [Ideal.ofBits, Ideal.ieee]

/-- `|x| < +∞` over the extended reals says `x` is a real number: at `x = ±∞` the absolute value is `⊤`. -/
theorem real_of_abs_lt (x : EReal)
    (h : Ideal.cmp .olt (max x (-x)) (Ideal.ofBits .f32 0x7F800000#32) = 1#1) : ∃ r : ℝ, x = ((r : ℝ) : EReal) := by
  rw [ofBits_inf] at h
  induction x using EReal.rec with
  | bot => simp [Ideal.cmp] at h
  | coe r => exact ⟨r, rfl⟩
  | top => simp [Ideal.cmp] at h

/-- `x ≥ 0`, compared against the pattern of `+0.0`, is the extended reals' order. -/
theorem nonneg_of_ge (x : EReal)
    (h : Ideal.cmp .oge x (Ideal.ofBits .f32 0x00000000#32) = 1#1) : 0 ≤ x := by
  have hz : Ideal.ofBits .f32 0x00000000#32 = (0 : EReal) := by simp [Ideal.ofBits, Ideal.ieee]
  rw [hz] at h
  by_cases hx : 0 ≤ x
  · exact hx
  · simp [Ideal.cmp, hx] at h

/-- "All of `|x| < +∞`" gives a real number at every index. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf x) (broadcastInDim s ![] hb (constant (F := Ideal) S_ .f32 0x7F800000#32)))
          init hr hu ValueIdx.ix0 = 1#1)
    (d : s.Idx) : ∃ r : ℝ, x d = ((r : ℝ) : EReal) := by
  have e := Host.reduce_andi_all _ _ _ _ _ h d
  exact real_of_abs_lt (x d) e

/-- "All of `x ≥ 0`" gives a non-negative entry at every index. -/
theorem all_nonneg {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
          (cmpf .oge x (broadcastInDim s ![] hb (constant (F := Ideal) S_ .f32 0x00000000#32)))
          init hr hu ValueIdx.ix0 = 1#1)
    (d : s.Idx) : 0 ≤ x d := by
  have e := Host.reduce_andi_all _ _ _ _ _ h d
  exact nonneg_of_ge (x d) e

variable [Cert.Pre_finite_inputs.Facts]

/-- The precondition decoded: scale, shift and running mean are real in every channel, and the running variance is
    a non-negative real in every channel. -/
theorem of_pre (a0 : FVec Ideal S100000x64 .f32) (a1 : FVec Ideal S27x64x64 .f32)
    (a2 a3 a4 a5 : FVec Ideal S64 .f32) (a6 a7 : IVec S27x60000 32)
    (h : Cert.Pre_finite_inputs.fn (F := Ideal) a0 a1 a2 a3 a4 a5 a6 a7 = fun _ => 1#1) :
    (∀ d : S64.Idx, ∃ r : ℝ, a2 d = ((r : ℝ) : EReal)) ∧ (∀ d : S64.Idx, ∃ r : ℝ, a3 d = ((r : ℝ) : EReal))
      ∧ (∀ d : S64.Idx, ∃ r : ℝ, a4 d = ((r : ℝ) : EReal))
      ∧ (∀ d : S64.Idx, ∃ r : ℝ, 0 ≤ r ∧ a5 d = ((r : ℝ) : EReal)) := by
  have h0 := congrFun h ValueIdx.ix0
  dsimp only [fn, fn_part1] at h0
  simp only [andi, IntOp.andi_eq_one] at h0
  obtain ⟨⟨⟨⟨⟨⟨-, -⟩, h2⟩, h3⟩, h4⟩, h5⟩, h5ge⟩ := h0
  refine ⟨fun d => all_real a2 _ _ _ _ h2 d, fun d => all_real a3 _ _ _ _ h3 d,
    fun d => all_real a4 _ _ _ _ h4 d, fun d => ?_⟩
  obtain ⟨r, hr⟩ := all_real a5 _ _ _ _ h5 d
  have hge := all_nonneg a5 _ _ _ _ h5ge d
  rw [hr] at hge
  exact ⟨r, by exact_mod_cast hge, hr⟩

end Cert.PreFacts

end
-- ==== Proof.KLayout.lean ====
/-
  A layout fact about the kernel's host operations around its scale-shift-clamp region.

  The [100000, 64] array S is viewed as [50000, 128]: entry (n, d) sits at row-major position 64 n + d, which in the
  [50000, 128] view is row (64 n + d) / 128 and lane (64 n + d) % 128. The per-channel scale and shift vectors (each
  [64]) are laid twice end to end to make [128] lane vectors, viewed as one row [1, 128]. Since 64 divides 128, the
  lane (64 n + d) % 128 taken modulo 64 is d, so the lane vectors read at that lane are the channel vectors at d.
  Hence scale, shift and clamp on the [50000, 128] view, viewed back as [100000, 64], is entry by entry
      max (S[n, d] · scale[d] + shift[d]) 0.
-/
import proofs.«142522_j52810917871748_2_alg».proof.Proof.Spec
import proofs.«142522_j52810917871748_2_alg».proof.Proof.Gen.KernelIdeal
import Idealize.ShloMosaic.Lib.Pipeline.Value
import Idealize.ShloMosaic.Lib.ValueIdx

noncomputable section

namespace Cert.KernelIdeal.Layout

open Idealize.ShloMosaic Idealize.ShloMosaic.ValueIdx Cert.KernelIdeal Cert.KernelIdeal.Spec

variable [Cert.KernelIdeal.Facts]
open Facts₀ Facts

/-- The channel of a [100000, 64] index, as an index of a [64] array. -/
def chan (i : S100000x64.Idx) : S64.Idx := ix1 (i 1 : Fin 64)

/-- A [64] vector laid twice end to end and viewed as one row [1, 128], read at lane l, is the vector at c whenever
    c is l modulo 64. -/
theorem dup_apply (v : FVec Ideal S64 .f32) (l : Fin 128) (c : Fin 64) (hc : c.val = l.val % 64) :
    shapeCast S1x128 (concatenate S128 0 [⟨S64, v⟩, ⟨S64, v⟩] concatenates_S64_S64_S128_d0) shapeCasts_S128_S1x128
        (ix2 (0 : Fin 1) l)
      = v (ix1 c) := by
  -- the row [1, 128] at (0, l) is the [128] vector at l
  refine (shapeCast_apply _ shapeCasts_S128_S1x128 (ix2 (0 : Fin 1) l) (ix1 l) (by
    rw [Shape.rowMajor_val_two, Shape.rowMajor_val_one]
    show l.val = 0 * 128 + l.val
    omega)).trans ?_
  -- two copies of v end to end at l are v at l modulo 64
  exact concatenate_replicate_apply (t := S128) (s₁ := S64) (0 : Fin 1) 2 v concatenates_S64_S64_S128_d0 rfl
    (ix1 l) (ix1 c) hc (fun b hb => by match b with | ⟨0, _⟩ => exact absurd rfl hb)

/-- The statement with the row q and lane r of the [50000, 128] view given by their defining equation
    128 q + r = 64 n + d. -/
theorem out_apply_at (S : FVec Ideal S100000x64 .f32) (sc sh : FVec Ideal S64 .f32)
    (n : Fin 100000) (d : Fin 64) (q : Fin 50000) (r : Fin 128) (h : q.val * 128 + r.val = n.val * 64 + d.val) :
    shapeCast S100000x64
        (bnArr (shapeCast S50000x128 S shapeCasts_S100000x64_S50000x128)
          (shapeCast S1x128 (concatenate S128 0 [⟨S64, sc⟩, ⟨S64, sc⟩] concatenates_S64_S64_S128_d0) shapeCasts_S128_S1x128)
          (shapeCast S1x128 (concatenate S128 0 [⟨S64, sh⟩, ⟨S64, sh⟩] concatenates_S64_S64_S128_d0) shapeCasts_S128_S1x128))
        shapeCasts_S50000x128_S100000x64 (ix2 n d)
      = max (S (ix2 n d) * sc (ix1 d) + sh (ix1 d)) (Ideal.ofBits .f32 0x00000000#32) := by
  have hd := d.isLt
  have hr := r.isLt
  -- (n, d) of the [100000, 64] result is (q, r) of the [50000, 128] view
  refine (shapeCast_apply _ shapeCasts_S50000x128_S100000x64 (ix2 n d) (ix2 q r) (by
    rw [Shape.rowMajor_val_two, Shape.rowMajor_val_two]
    show q.val * 128 + r.val = n.val * 64 + d.val
    exact h)).trans ?_
  unfold bnArr
  show max (shapeCast S50000x128 S shapeCasts_S100000x64_S50000x128 (ix2 q r)
        * shapeCast S1x128 (concatenate S128 0 [⟨S64, sc⟩, ⟨S64, sc⟩] concatenates_S64_S64_S128_d0) shapeCasts_S128_S1x128
            (ix2 (0 : Fin 1) r)
        + shapeCast S1x128 (concatenate S128 0 [⟨S64, sh⟩, ⟨S64, sh⟩] concatenates_S64_S64_S128_d0) shapeCasts_S128_S1x128
            (ix2 (0 : Fin 1) r))
      (Ideal.ofBits .f32 0x00000000#32) = _
  -- and (q, r) of the view is (n, d) of S
  rw [shapeCast_apply S shapeCasts_S100000x64_S50000x128 (ix2 q r) (ix2 n d) (by
    rw [Shape.rowMajor_val_two, Shape.rowMajor_val_two]
    show n.val * 64 + d.val = q.val * 128 + r.val
    exact h.symm)]
  -- the lane r modulo 64 is the channel d
  rw [dup_apply sc r d (by omega), dup_apply sh r d (by omega)]

/-- Scale, shift and clamp on the [50000, 128] view, viewed back as [100000, 64], read at an index i:
    max (S i · scale (channel of i) + shift (channel of i)) 0. -/
theorem out_apply (S : FVec Ideal S100000x64 .f32) (sc sh : FVec Ideal S64 .f32) (i : S100000x64.Idx) :
    shapeCast S100000x64
        (bnArr (shapeCast S50000x128 S shapeCasts_S100000x64_S50000x128)
          (shapeCast S1x128 (concatenate S128 0 [⟨S64, sc⟩, ⟨S64, sc⟩] concatenates_S64_S64_S128_d0) shapeCasts_S128_S1x128)
          (shapeCast S1x128 (concatenate S128 0 [⟨S64, sh⟩, ⟨S64, sh⟩] concatenates_S64_S64_S128_d0) shapeCasts_S128_S1x128))
        shapeCasts_S50000x128_S100000x64 i
      = max (S i * sc (chan i) + sh (chan i)) (Ideal.ofBits .f32 0x00000000#32) := by
  obtain ⟨n, d, rfl⟩ : ∃ (n : Fin 100000) (d : Fin 64), i = ix2 n d := ⟨i 0, i 1, eq_ix2 i⟩
  have hn := n.isLt
  have hd := d.isLt
  exact out_apply_at S sc sh n d
    (⟨(64 * n.val + d.val) / 128, by omega⟩ : Fin 50000) (⟨(64 * n.val + d.val) % 128, by omega⟩ : Fin 128)
    (by show (64 * n.val + d.val) / 128 * 128 + (64 * n.val + d.val) % 128 = n.val * 64 + d.val; omega)

end Cert.KernelIdeal.Layout

end
-- ==== Proof.RefRead.lean ====
/-
  The reference's result read at one index.

  At the extended reals the reference computes, for every row n and channel d,
      max ((S[n, d] − μ[d]) · (rsqrt(σ[d] + ε) · γ[d]) + β[d]) 0,
  where S is the result of the scatter-add stage (left opaque here), γ, β, μ, σ are the four [64] arguments and ε is
  the literal 0x3727C5AC. Every operation after the scatter reads one element of each operand, and every broadcast
  reads its operand at the channel coordinate of the index, so the chain of read-at-an-index facts of the generated
  module collapses to this formula.
-/
import proofs.«142522_j52810917871748_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The channel of a [100000, 64] index, as an index of a [64] array. -/
def chan (i : S100000x64.Idx) : S64.Idx := ix1 (i 1 : Fin 64)

/-- Entry i of the reference's result is max ((S i − μ c) · (rsqrt (σ c + ε) · γ c) + β c) 0 at the channel c of i. -/
theorem ref_apply (x0 : FVec Ideal S100000x64 .f32) (x1 : FVec Ideal S27x64x64 .f32) (x2 x3 x4 x5 : FVec Ideal S64 .f32)
    (x6 x7 : IVec S27x60000 32) (i : S100000x64.Idx) :
    val_main_v27 (F := Ideal) x0 x1 x2 x3 x4 x5 x6 x7 i
      = max ((val_main_v12 (F := Ideal) x0 x1 x6 x7 i - x4 (chan i))
              * (Ideal.rsqrt (x5 (chan i) + Ideal.ofBits .f32 0x3727C5AC#32) * x2 (chan i)) + x3 (chan i))
          (Ideal.ofBits .f32 0x00000000#32) := by
  rw [val_main_v27_apply, val_main_v25_apply, val_main_v22_apply, val_main_v18_apply, val_main_v17_apply,
    val_main_v16_apply, val_main_v21_apply, val_main_v20_apply, val_main_v19_apply, val_main_v15_apply,
    val_main_v14_apply, val_main_v13_apply, val_main_cst_1_apply, val_main_v24_apply, val_main_v23_apply,
    val_main_v26_apply, val_main_cst_2_apply]
  -- each composed broadcast index is the channel of i
  have e4 : idx_main_v16 (idx_main_v17 i) = chan i :=
    funext fun a => Fin.ext (by match a with | ⟨0, _⟩ => rfl)
  have e2 : idx_main_v20 (idx_main_v21 i) = chan i :=
    funext fun a => Fin.ext (by match a with | ⟨0, _⟩ => rfl)
  have e3 : idx_main_v23 (idx_main_v24 i) = chan i :=
    funext fun a => Fin.ext (by match a with | ⟨0, _⟩ => rfl)
  simp only [e4, e2, e3, Ideal.addf_def, Ideal.subf_def, Ideal.mulf_def, Ideal.maximumf_def,
    Ideal.hostUnary_rsqrt_def, Ideal.ofBits_def]

end Cert.ReferenceIdeal.RefValue

end
-- ==== Proof.BnLaw.lean ====
/- The batch-norm affine step, read over the extended reals.

   Two programs compute the inference-mode batch normalisation followed by a maximum in two different
   associations of the same affine map.  With `i = 1/√(σ + ε)` a real number (because `σ ≥ 0` and `ε > 0`),

       S · (γ · i) + (β − (μ · γ) · i)   and   (S − μ) · (i · γ) + β

   agree for every extended real `S`: for real `S` this is ring arithmetic; for `S = ±∞` both sides are the
   infinity whose sign is that of `±(γ · i)`, and when `γ · i = 0` both sides reduce to `β`. -/
import Idealize.ShloMosaic.PureOps.Ideal

noncomputable section

namespace Cert.BnLaw

open Idealize.ShloMosaic

/-- The f32 pattern `0x3727C5AC` (sign 0, exponent field 110, significand field `0x27C5AC`) is a positive
    normal number: `(2^23 + 2606508) · 2^(110 − 127 − 23) = 10995116 · 2^(−40)`. -/
theorem eps_real : ∃ ε : ℝ, 0 < ε ∧ Ideal.ofBits .f32 0x3727C5AC#32 = ((ε : ℝ) : EReal) := by
  refine ⟨(10995116 : ℝ) * (2 : ℝ) ^ (-40 : ℤ), by positivity, ?_⟩
  simp [Ideal.ofBits, Ideal.ieee, -EReal.coe_mul]

/-- The reciprocal square root of a positive real is the real `(√r)⁻¹`. -/
theorem rsqrt_coe_pos (r : ℝ) (hr : 0 < r) :
    Ideal.rsqrt (r : EReal) = (((Real.sqrt r)⁻¹ : ℝ) : EReal) := by
  rw [Ideal.rsqrt_coe, if_neg (not_lt.mpr hr.le), if_neg hr.ne']

/-- The two associations of the affine step agree at every extended real `S`, for real coefficients. -/
theorem affine_assoc (S : EReal) (g b m i : ℝ) :
    S * ((g : EReal) * (i : EReal)) + ((b : EReal) - ((m : EReal) * (g : EReal)) * (i : EReal))
      = (S - (m : EReal)) * ((i : EReal) * (g : EReal)) + (b : EReal) := by
  have h1 : (g : EReal) * (i : EReal) = ((g * i : ℝ) : EReal) := (EReal.coe_mul g i).symm
  have h2 : (i : EReal) * (g : EReal) = ((g * i : ℝ) : EReal) := by
    rw [← EReal.coe_mul, mul_comm]
  have h3 : (b : EReal) - ((m : EReal) * (g : EReal)) * (i : EReal) = ((b - m * (g * i) : ℝ) : EReal) := by
    rw [← EReal.coe_mul, ← EReal.coe_mul, ← EReal.coe_sub, mul_assoc]
  rw [h1, h2, h3]
  induction S using EReal.rec with
  | bot =>
    rw [EReal.bot_sub]
    rcases lt_trichotomy (g * i) 0 with hc | hc | hc
    · rw [EReal.bot_mul_coe_of_neg hc, EReal.top_add_coe, EReal.top_add_coe]
    · rw [hc]; simp
    · rw [EReal.bot_mul_coe_of_pos hc, EReal.bot_add, EReal.bot_add]
  | coe s =>
    norm_cast
    ring
  | top =>
    rw [EReal.top_sub_coe]
    rcases lt_trichotomy (g * i) 0 with hc | hc | hc
    · rw [EReal.top_mul_coe_of_neg hc, EReal.bot_add, EReal.bot_add]
    · rw [hc]; simp
    · rw [EReal.top_mul_coe_of_pos hc, EReal.top_add_coe, EReal.top_add_coe]

/-- Batch normalisation (inference) followed by a maximum: the scale-and-shift form
    `S·(γ·inv) + (β − (μ·γ)·inv)` and the centred form `(S − μ)·(inv·γ) + β`, `inv = rsqrt (σ + ε)`, agree for
    every extended real `S` once `σ ≥ 0` and `ε > 0` make `inv` a real number. -/
theorem bn_relu_eq (S : EReal) (γ β μ σ ε : ℝ) (hσ : 0 ≤ σ) (hε : 0 < ε) (z : EReal) :
    max (S * ((γ : EReal) * Ideal.rsqrt ((σ : EReal) + (ε : EReal)))
          + ((β : EReal) - ((μ : EReal) * (γ : EReal)) * Ideal.rsqrt ((σ : EReal) + (ε : EReal)))) z
      = max ((S - (μ : EReal)) * (Ideal.rsqrt ((σ : EReal) + (ε : EReal)) * (γ : EReal)) + (β : EReal)) z := by
  have hpos : 0 < σ + ε := add_pos_of_nonneg_of_pos hσ hε
  have hr : Ideal.rsqrt ((σ : EReal) + (ε : EReal)) = (((Real.sqrt (σ + ε))⁻¹ : ℝ) : EReal) := by
    rw [← EReal.coe_add]; exact rsqrt_coe_pos _ hpos
  rw [hr, affine_assoc]

end Cert.BnLaw

end
-- ==== Proof.Bridge.lean ====
/-
  The kernel program's result is the reference's result, as functions of the eight argument arrays over the extended
  reals, when the four per-channel arrays are real numbers and the running variance is non-negative.

  * The contributions agree: both programs gather the same rows with the same wrapped indices, and entry (k, m, d) of
    either is the sum over the 64 input channels c of row[k, m, c] · w[k, c, d] (narrowing to bf16 is the identity on
    extended reals).
  * The scatter-added sums agree: the same scatter of the same flattened contributions into the same zero array.
  * The results agree entry by entry: with c the channel of the index and inv = rsqrt (σ c + ε), the kernel computes
    max (S · (γ c · inv) + (β c − (μ c · γ c) · inv)) 0 and the reference max ((S − μ c) · (inv · γ c) + β c) 0; these
    are equal because σ c ≥ 0 and ε > 0 make inv a real number.
-/
import proofs.«142522_j52810917871748_2_alg».proof.Proof.KValue
import proofs.«142522_j52810917871748_2_alg».proof.Proof.KLayout
import proofs.«142522_j52810917871748_2_alg».proof.Proof.RefRead
import proofs.«142522_j52810917871748_2_alg».proof.Proof.BnLaw

noncomputable section

namespace Cert.Bridge

open Idealize.ShloMosaic Idealize.ShloMosaic.ValueIdx
open Cert.KernelIdeal (S100000x64 S27x64x64 S64 S27x60000 S27x60000x64)
open Cert.KernelIdeal.KValue Cert.ReferenceIdeal.Read

variable [Cert.KernelIdeal.Facts]

/-- The gathered rows agree: the same gather of the same array at the same wrapped indices. -/
theorem rows_eq (x0 : FVec Ideal S100000x64 .f32) (x6 : IVec S27x60000 32) :
    rows x0 x6 = val_main_v6 (F := Ideal) x0 x6 := rfl

/-- The contributions agree: entry (k, m, d) of either is Σ_c row[k, m, c] · w[k, c, d]. -/
theorem contrib_eq (x0 : FVec Ideal S100000x64 .f32) (x1 : FVec Ideal S27x64x64 .f32) (x6 : IVec S27x60000 32) :
    contrib x0 x1 x6 = val_main_v7 (F := Ideal) x0 x1 x6 := by
  funext i
  rw [val_main_v7_apply]
  unfold contrib Cert.KernelIdeal.Spec.mmArr
  refine Finset.sum_congr rfl fun k _ => ?_
  have el : lidx_main_v7 i k = ix3 (i 0 : Fin 27) (i 1 : Fin 60000) k :=
    funext fun a => Fin.ext (by match a with | ⟨0, _⟩ => rfl | ⟨1, _⟩ => rfl | ⟨2, _⟩ => rfl)
  have er : ridx_main_v7 i k = ix3 (i 0 : Fin 27) k (i 2 : Fin 64) :=
    funext fun a => Fin.ext (by match a with | ⟨0, _⟩ => rfl | ⟨1, _⟩ => rfl | ⟨2, _⟩ => rfl)
  rw [el, er, rows_eq]
  rfl

/-- The scatter-added sums agree. -/
theorem summed_eq (x0 : FVec Ideal S100000x64 .f32) (x1 : FVec Ideal S27x64x64 .f32) (x6 x7 : IVec S27x60000 32) :
    summed x0 x1 x6 x7 = val_main_v12 (F := Ideal) x0 x1 x6 x7 := by
  unfold summed val_main_v12 val_main_v8
  rw [contrib_eq]
  rfl

/-- The two programs' results agree when γ, β, μ, σ are real and σ ≥ 0. -/
theorem result_eq (x0 : FVec Ideal S100000x64 .f32) (x1 : FVec Ideal S27x64x64 .f32) (x2 x3 x4 x5 : FVec Ideal S64 .f32)
    (x6 x7 : IVec S27x60000 32)
    (h2 : ∀ d : S64.Idx, ∃ r : ℝ, x2 d = ((r : ℝ) : EReal))
    (h3 : ∀ d : S64.Idx, ∃ r : ℝ, x3 d = ((r : ℝ) : EReal))
    (h4 : ∀ d : S64.Idx, ∃ r : ℝ, x4 d = ((r : ℝ) : EReal))
    (h5 : ∀ d : S64.Idx, ∃ r : ℝ, 0 ≤ r ∧ x5 d = ((r : ℝ) : EReal)) :
    result x0 x1 x2 x3 x4 x5 x6 x7 = val_main_v27 (F := Ideal) x0 x1 x2 x3 x4 x5 x6 x7 := by
  funext i
  unfold result
  rw [Cert.KernelIdeal.Layout.out_apply, Cert.ReferenceIdeal.RefValue.ref_apply, ← summed_eq]
  generalize summed x0 x1 x6 x7 i = S
  have hc : Cert.ReferenceIdeal.RefValue.chan i = Cert.KernelIdeal.Layout.chan i := rfl
  rw [hc]
  generalize Cert.KernelIdeal.Layout.chan i = c
  -- the kernel's scale and shift at the channel
  have hsc : scale x2 x5 c = x2 c * Ideal.rsqrt (x5 c + Ideal.ofBits .f32 0x3727C5AC#32) := rfl
  have hsh : shift x2 x3 x4 x5 c = x3 c - (x4 c * x2 c) * Ideal.rsqrt (x5 c + Ideal.ofBits .f32 0x3727C5AC#32) := rfl
  obtain ⟨γ, hγ⟩ := h2 c
  obtain ⟨β, hβ⟩ := h3 c
  obtain ⟨μ, hμ⟩ := h4 c
  obtain ⟨σ, hσ0, hσ⟩ := h5 c
  obtain ⟨ε, hε0, hε⟩ := Cert.BnLaw.eps_real
  rw [hsc, hsh, hγ, hβ, hμ, hσ, hε]
  exact Cert.BnLaw.bn_relu_eq S γ β μ σ ε hσ0 hε0 _

end Cert.Bridge

end
-- ==== Proof.lean ====
/-
  A sparse 3-D convolution block: rows of `feats` gathered at `in_idx`, multiplied offset by offset by that offset's
  64 × 64 weights, scatter-added by `out_idx` into a zero array, then batch normalisation with running statistics and a
  clamp below at zero. The kernel program does the products in one pipelined region (27 × 3 blocks) and the
  normalisation in another (five blocks of a [50000, 128] view), with host operations between; the reference does
  everything on the host.

  Over the extended reals both programs gather, multiply and scatter-add the same numbers: narrowing to bf16 is the
  identity there, and a block-by-block product into a zero accumulator is the whole product, entry by entry. They differ
  only in how the affine step is associated, with inv = rsqrt (running_var + ε):

      kernel      max (S · (gamma · inv) + (beta − (running_mean · gamma) · inv)) 0
      reference   max ((S − running_mean) · (inv · gamma) + beta) 0

  For real gamma, beta, running_mean and a real inv the two agree at EVERY extended real S (for a real S by
  distributivity; at S = ±∞ both sides are the same infinity, or beta when gamma · inv = 0). inv is real because the
  precondition makes running_var a real ≥ 0 and ε is a positive real, so running_var + ε > 0; at running_var = −ε the
  two programs differ (inv = +∞ gives 0 against +∞), which is why the precondition carries running_var ≥ 0.

  The three frames: the two kernel programs' are the generated frame theorems; the reference's is its generated run with
  the result dropped. The idealization rewrote nothing, so there is nothing to preserve. For the value claim the kernel
  program's run is taken with its result buffer named, that buffer is read back through the boundaries of @main to the
  function `KValue.result` of the arguments, and that function is the reference's last stage, entry by entry.
-/
import proofs.«142522_j52810917871748_2_alg».proof.Defs
import proofs.«142522_j52810917871748_2_alg».proof.Proof.Gen.Kernel
import proofs.«142522_j52810917871748_2_alg».proof.Proof.Gen.Kernel.Skeleton
import proofs.«142522_j52810917871748_2_alg».proof.Proof.Gen.Kernel.Launch
import proofs.«142522_j52810917871748_2_alg».proof.Proof.Gen.Kernel.Points
import proofs.«142522_j52810917871748_2_alg».proof.Proof.Gen.Kernel.Frame
import proofs.«142522_j52810917871748_2_alg».proof.Proof.Gen.KernelIdeal
import proofs.«142522_j52810917871748_2_alg».proof.Proof.Gen.KernelIdeal.Skeleton
import proofs.«142522_j52810917871748_2_alg».proof.Proof.Gen.KernelIdeal.Launch
import proofs.«142522_j52810917871748_2_alg».proof.Proof.Gen.KernelIdeal.Points
import proofs.«142522_j52810917871748_2_alg».proof.Proof.Gen.KernelIdeal.Frame
import proofs.«142522_j52810917871748_2_alg».proof.Proof.Gen.ReferenceIdeal
import proofs.«142522_j52810917871748_2_alg».proof.Proof.Gen.ReferenceIdeal.Run
import proofs.«142522_j52810917871748_2_alg».proof.Proof.Gen.ReferenceIdeal.Read
import proofs.«142522_j52810917871748_2_alg».proof.Proof.Gen.Pre_finite_inputs
import proofs.«142522_j52810917871748_2_alg».proof.Proof.NamedRun
import proofs.«142522_j52810917871748_2_alg».proof.Proof.Fold
import proofs.«142522_j52810917871748_2_alg».proof.Proof.PreFacts
import proofs.«142522_j52810917871748_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `KValue.result` of the kernel program's arguments: the kernel program by reading its result
    buffer back through @main, the reference because its last stage is that function of arguments that agree. -/
theorem algebraic : Cert.algebraic_KernelIdeal_ReferenceIdeal := by
  intro m ρ m' ρ' hpre hagree
  refine ⟨fun c => Cert.KernelIdeal.KValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨((h c).1).trans (Cert.KernelIdeal.Fold.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [a0, a1, a2, a3, a4, a5, a6, a7]
    obtain ⟨h2, h3, h4, h5⟩ := Cert.PreFacts.of_pre _ _ _ _ _ _ _ _ (hpre c)
    exact ((Cert.ReferenceIdeal.Read.val_main_v27_eq _ _ _ _ _ _ _ _).trans
      (Cert.Bridge.result_eq _ _ _ _ _ _ _ _ h2 h3 h4 h5).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
